-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) (main_arg1 : IVec S67108864 32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S2x1x1 : Shape := ⟨3, ![2, 1, 1]⟩
abbrev S8192x128 : Shape := ⟨2, ![8192, 128]⟩
abbrev S1x1x1 : Shape := ⟨3, ![1, 1, 1]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S67108864, .f32⟩
  | .hbm, ⟨1, _⟩ => ⟨S67108864, .i32⟩
  | .hbm, ⟨2, _⟩ => ⟨S524288x128, .f32⟩
  | .hbm, ⟨3, _⟩ => ⟨S524288x128, .i32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1x1, .f32⟩
  | .local _ .vmem, ⟨5, _⟩ => ⟨S1x1x1, .f32⟩
  | .local _ .vmem, ⟨6, _⟩ => ⟨S1x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v50 : BitVec 1 := Scalar.cmpi .eq arg1 c31_i32
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S67108864_S524288x128 : S67108864.ShapeCasts S524288x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .i32 = 32 ∨ (Rect.block (s := S524288x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S67108864 : Shape := ⟨1, ![67108864]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .i32⟩
  | .hbm, ⟨2, _⟩ => ⟨S67108864, .f32⟩
  | .hbm, ⟨3, _⟩ => ⟨S_, .f32⟩
  | .hbm, ⟨4, _⟩ => ⟨S67108864, .f32⟩
  | .hbm, ⟨5, _⟩ => ⟨S67108864, .f32⟩
  | .hbm, ⟨6, _⟩ => ⟨S67108864, .f32⟩
  | .hbm, ⟨7, _⟩ => ⟨S67108864, .f32⟩
  | .hbm, ⟨8, _⟩ => ⟨S67108864, .i1⟩
  | .hbm, ⟨9, _⟩ => ⟨S67108864, .f32⟩
  | .hbm, ⟨10, _⟩ => ⟨S67108864, .f32⟩
  | .hbm, ⟨11, _⟩ => ⟨S67108864, .f32⟩
  | .hbm, ⟨12, _⟩ => ⟨S67108864, .f32⟩
  | .hbm, ⟨13, _⟩ => ⟨S67108864, .f32⟩
  | .hbm, ⟨14, _⟩ => ⟨S67108864, .f32⟩
  | .hbm, ⟨15, _⟩ => ⟨S67108864, .f32⟩
  | .hbm, ⟨16, _⟩ => ⟨S67108864, .f32⟩
  | .hbm, ⟨17, _⟩ => ⟨S_, .f32⟩
  | .hbm, ⟨18, _⟩ => ⟨S67108864, .f32⟩
  | .hbm, ⟨19, _⟩ => ⟨S67108864, .i1⟩
  | .hbm, ⟨20, _⟩ => ⟨S_, .f32⟩
  | .hbm, ⟨21, _⟩ => ⟨S_, .f32⟩
  | .hbm, ⟨22, _⟩ => ⟨S67108864, .f32⟩
  | .hbm, ⟨23, _⟩ => ⟨S67108864, .f32⟩
  | .hbm, ⟨24, _⟩ => ⟨S67108864, .f32⟩
  | .hbm, ⟨25, _⟩ => ⟨S67108864, .f32⟩
  | .hbm, ⟨26, _⟩ => ⟨S67108864, .f32⟩
  | .hbm, ⟨27, _⟩ => ⟨S_, .f32⟩
  | .hbm, ⟨28, _⟩ => ⟨S67108864, .f32⟩
  | .hbm, ⟨29, _⟩ => ⟨S67108864, .f32⟩
  | .hbm, ⟨30, _⟩ => ⟨S67108864, .f32⟩
  | .hbm, ⟨31, _⟩ => ⟨S67108864, .f32⟩
  | .hbm, ⟨32, _⟩ => ⟨S67108864, .i1⟩
  | .hbm, ⟨33, _⟩ => ⟨S67108864, .f32⟩
  | .hbm, ⟨34, _⟩ => ⟨S67108864, .f32⟩
  | .hbm, ⟨35, _⟩ => ⟨S67108864, .f32⟩
  | .hbm, ⟨36, _⟩ => ⟨S67108864, .f32⟩
  | .hbm, ⟨37, _⟩ => ⟨S67108864, .f32⟩
  | .hbm, ⟨38, _⟩ => ⟨S67108864, .f32⟩
  | .hbm, ⟨39, _⟩ => ⟨S67108864, .f32⟩
  | .hbm, ⟨40, _⟩ => ⟨S67108864, .f32⟩
  | .hbm, ⟨41, _⟩ => ⟨S_, .f32⟩
  | .hbm, ⟨42, _⟩ => ⟨S67108864, .f32⟩
  | .hbm, ⟨43, _⟩ => ⟨S67108864, .i1⟩
  | .hbm, ⟨44, _⟩ => ⟨S_, .f32⟩
  | .hbm, ⟨45, _⟩ => ⟨S_, .f32⟩
  | .hbm, ⟨46, _⟩ => ⟨S67108864, .f32⟩
  | .hbm, ⟨47, _⟩ => ⟨S67108864, .f32⟩
  | .hbm, ⟨48, _⟩ => ⟨S67108864, .f32⟩
  | .hbm, ⟨49, _⟩ => ⟨S67108864, .f32⟩
  | .hbm, ⟨50, _⟩ => ⟨S67108864, .f32⟩
  | .hbm, ⟨51, _⟩ => ⟨S_, .i32⟩
  | .hbm, ⟨52, _⟩ => ⟨S67108864, .i32⟩
  | .hbm, ⟨53, _⟩ => ⟨S67108864, .i1⟩
  | .hbm, ⟨54, _⟩ => ⟨S_, .i32⟩
  | .hbm, ⟨55, _⟩ => ⟨S67108864, .i32⟩
  | .hbm, ⟨56, _⟩ => ⟨S67108864, .i1⟩
  | .hbm, ⟨57, _⟩ => ⟨S_, .f32⟩
  | .hbm, ⟨58, _⟩ => ⟨S_, .f32⟩
  | .hbm, ⟨59, _⟩ => ⟨S67108864, .f32⟩
  | .hbm, ⟨60, _⟩ => ⟨S67108864, .f32⟩
  | .hbm, ⟨61, _⟩ => ⟨S67108864, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call2_cst : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩
abbrev main_v9 : Ref sig .tc := ⟨.hbm, 43, rfl⟩
abbrev main_cst_3 : Ref sig .tc := ⟨.hbm, 44, rfl⟩
abbrev main_cst_4 : Ref sig .tc := ⟨.hbm, 45, rfl⟩
abbrev main_call3_v0 : Ref sig .tc := ⟨.hbm, 46, rfl⟩
abbrev main_call3_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c : Ref sig .tc := ⟨.hbm, 51, rfl⟩
abbrev main_v13 : Ref sig .tc := ⟨.hbm, 52, rfl⟩
abbrev main_v14 : Ref sig .tc := ⟨.hbm, 53, rfl⟩
abbrev main_c_5 : Ref sig .tc := ⟨.hbm, 54, rfl⟩
abbrev main_v15 : Ref sig .tc := ⟨.hbm, 55, rfl⟩
abbrev main_v16 : Ref sig .tc := ⟨.hbm, 56, rfl⟩
abbrev main_cst_6 : Ref sig .tc := ⟨.hbm, 57, rfl⟩
abbrev main_call4_v0 : Ref sig .tc := ⟨.hbm, 58, rfl⟩
abbrev main_call4_v1 : Ref sig .tc := ⟨.hbm, 59, rfl⟩
abbrev main_v17 : Ref sig .tc := ⟨.hbm, 60, rfl⟩
abbrev main_v18 : Ref sig .tc := ⟨.hbm, 61, rfl⟩
abbrev main_cst_7 : Ref sig .tc := ⟨.hbm, 62, rfl⟩
abbrev main_v19 : Ref sig .tc := ⟨.hbm, 63, rfl⟩
abbrev main_cst_8 : Ref sig .tc := ⟨.hbm, 64, rfl⟩
abbrev main_v20 : Ref sig .tc := ⟨.hbm, 65, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  reducesTo_S67108864_S_d0 : S67108864.ReducesTo [0] S_
  h_S_ : 0 < S_.numel

variable [Facts₀]

class Facts : Prop extends Facts₀ where

variable [Facts]
-- ==== Proof.LibSumSplit.lean ====
/-
  General lemmas, independent of any program: finite sums over positions written in mixed radix, and division of
  extended reals by a positive real.

  * a double sum over a < A, b < B of a function of a·B + b is the single sum over the positions k < A·B;
  * the sum over the positions k < Q·S·R·C, regrouped by the four digits (q, s, r, l) of k = ((S q + s) R + r) C + l,
    with the last digit l summed second and the digit s ranging over a range;
  * division by a positive real distributes over the sum of ANY two extended reals (it is the product with a positive
    real, which is monotone and keeps each infinity), although distributivity fails on the extended reals in general.
-/
import Idealize.ShloMosaic.PureOps.Ideal.Laws

noncomputable section

namespace Cert.LibSumSplit

open Idealize.ShloMosaic

/-- A double sum over a < A, b < B of a function of a·B + b is the single sum over k < A·B. -/
theorem sum_fin_mul {M : Type*} [AddCommMonoid M] (A B : ℕ) (F : ℕ → M) :
    ∑ a : Fin A, ∑ b : Fin B, F (a.val * B + b.val) = ∑ k : Fin (A * B), F k.val := by
  rw [← Equiv.sum_comp finProdFinEquiv (fun k : Fin (A * B) => F k.val), Fintype.sum_prod_type]
  refine Finset.sum_congr rfl fun a _ => Finset.sum_congr rfl fun b _ => ?_
  show F _ = F _
  congr 1
  show a.val * B + b.val = b.val + B * a.val
  rw [Nat.mul_comm, Nat.add_comm]

/-- The sum over all positions below Q·S·R·C, regrouped by the four digits (q, s, r, l) of a position
    k = ((S q + s) R + r) C + l, the digit l summed second. State it over variable extents and instantiate the numerals
    once: index types of literal size in the millions are slow to compare. -/
theorem total_split {M : Type*} [AddCommMonoid M] (Q S R C : ℕ) (f : ℕ → M) :
    ∑ k : Fin (Q * S * R * C), f k.val
      = ∑ q : Fin Q, ∑ l : Fin C, ∑ s ∈ Finset.range S, ∑ r : Fin R, f (((S * q.val + s) * R + r.val) * C + l.val) := by
  have e1 : ∑ k : Fin (Q * S * R * C), f k.val = ∑ a : Fin (Q * S * R), ∑ l : Fin C, f (a.val * C + l.val) :=
    (sum_fin_mul (Q * S * R) C f).symm
  have e2 : ∑ a : Fin (Q * S * R), ∑ l : Fin C, f (a.val * C + l.val)
      = ∑ n : Fin (Q * S), ∑ r : Fin R, ∑ l : Fin C, f ((n.val * R + r.val) * C + l.val) :=
    (sum_fin_mul (Q * S) R (fun a => ∑ l : Fin C, f (a * C + l.val))).symm
  have e3 : ∑ n : Fin (Q * S), ∑ r : Fin R, ∑ l : Fin C, f ((n.val * R + r.val) * C + l.val)
      = ∑ q : Fin Q, ∑ s : Fin S, ∑ r : Fin R, ∑ l : Fin C, f (((q.val * S + s.val) * R + r.val) * C + l.val) :=
    (sum_fin_mul Q S (fun n => ∑ r : Fin R, ∑ l : Fin C, f ((n * R + r.val) * C + l.val))).symm
  rw [e1, e2, e3]
  refine Finset.sum_congr rfl fun q _ => ?_
  have e4 : ∀ l : Fin C, ∑ s ∈ Finset.range S, ∑ r : Fin R, f (((S * q.val + s) * R + r.val) * C + l.val)
      = ∑ s : Fin S, ∑ r : Fin R, f (((q.val * S + s.val) * R + r.val) * C + l.val) := fun l => by
    rw [Finset.sum_range (fun s => ∑ r : Fin R, f (((S * q.val + s) * R + r.val) * C + l.val)), Nat.mul_comm S q.val]
  have e5 : ∑ l : Fin C, ∑ s ∈ Finset.range S, ∑ r : Fin R, f (((S * q.val + s) * R + r.val) * C + l.val)
      = ∑ l : Fin C, ∑ s : Fin S, ∑ r : Fin R, f (((q.val * S + s.val) * R + r.val) * C + l.val) :=
    Finset.sum_congr rfl fun l _ => e4 l
  calc ∑ s : Fin S, ∑ r : Fin R, ∑ l : Fin C, f (((q.val * S + s.val) * R + r.val) * C + l.val)
      = ∑ s : Fin S, ∑ l : Fin C, ∑ r : Fin R, f (((q.val * S + s.val) * R + r.val) * C + l.val) :=
        Finset.sum_congr rfl fun s _ => Finset.sum_comm
    _ = ∑ l : Fin C, ∑ s : Fin S, ∑ r : Fin R, f (((q.val * S + s.val) * R + r.val) * C + l.val) := Finset.sum_comm
    _ = _ := e5.symm

/-- Division by a positive real distributes over the sum of any two extended reals. -/
theorem div_pos_real_add {y : ℝ} (hy : 0 < y) (a b : EReal) :
    Ideal.div (a + b) (y : EReal) = Ideal.div a (y : EReal) + Ideal.div b (y : EReal) := by
  rw [Ideal.div_coe hy.ne', Ideal.div_coe hy.ne', Ideal.div_coe hy.ne']
  exact EReal.right_distrib_of_nonneg_of_ne_top (by exact_mod_cast (one_div_pos.mpr hy).le) (EReal.coe_ne_top _) a b

end Cert.LibSumSplit

end
-- ==== Proof.Loss.lean ====
/-
  The weighted binary cross-entropy of one element, as a function of one logit x and one integer target t, and the
  two algebraic facts that relate a mean taken in pieces to the mean of the whole.

  * loss x t: for t = 1 the softplus of -x weighted 1 where 0 ≤ x and 8 elsewhere; for t = 0 the softplus
    of x weighted 1 where x < 0 and 8 elsewhere; for any other target zero. The softplus is spelt
    max u 0 + log1p (exp (-|u|)), behind a test (u - 0 ≠ u - 0) that no extended real passes.
  * refLoss x t: the same quantity with the two targets' branches written out separately, and refLoss = loss.
  * dividing by 2^26 distributes over a sum of two extended reals, whatever they are.
-/
import Idealize.ShloMosaic.PureOps.Ideal.Laws
import Idealize.ShloMosaic.Lib.ValueIdx
import proofs.«170925_j79465484910812_2_alg».proof.Proof.LibSumSplit

noncomputable section

namespace Cert.Loss

open Idealize.ShloMosaic

/-- The softplus argument: 0 - x under target 1, x otherwise. -/
def arg (x : Ideal .f32) (t : BitVec 32) : Ideal .f32 :=
  Scalar.select (IntOp.cmpi .eq t 1#32) (FloatOps.subf (FloatOps.ofBits .f32 0#32) x) x

/-- log (1 + e^u) as max u 0 + log1p (exp (0 - |u - 0|)), guarded by u - 0 ≠ u - 0. -/
def softplus (u : Ideal .f32) : Ideal .f32 :=
  Scalar.select
    (FloatOps.cmpf .one (FloatOps.subf u (FloatOps.ofBits .f32 0#32)) (FloatOps.subf u (FloatOps.ofBits .f32 0#32)))
    (FloatOps.addf u (FloatOps.ofBits .f32 0#32))
    (FloatOps.addf (FloatOps.maximumf u (FloatOps.ofBits .f32 0#32))
      (FloatOps.log1p (FloatOps.exp (FloatOps.subf (FloatOps.ofBits .f32 0#32)
        (FloatOps.absf (FloatOps.subf u (FloatOps.ofBits .f32 0#32)))))))

/-- The weight: 1 when (0 ≤ x) and (t = 1) agree, 8 when they differ. -/
def weight (x : Ideal .f32) (t : BitVec 32) : Ideal .f32 :=
  Scalar.select
    (IntOp.xori (IntOp.xori (FloatOps.cmpf .oge x (FloatOps.ofBits .f32 0#32)) (IntOp.cmpi .eq t 1#32)) 1#1)
    (FloatOps.ofBits .f32 0x3F800000#32) (FloatOps.ofBits .f32 0x41000000#32)

/-- The target is 0 or 1. -/
def valid (t : BitVec 32) : BitVec 1 := IntOp.ori (IntOp.cmpi .eq t 0#32) (IntOp.cmpi .eq t 1#32)

/-- One element's loss. -/
def loss (x : Ideal .f32) (t : BitVec 32) : Ideal .f32 :=
  Scalar.select (valid t) (FloatOps.mulf (softplus (arg x t)) (weight x t)) (FloatOps.ofBits .f32 0#32)

/-- The softplus with the host's spellings of negation, absolute value, exp and log1p. -/
def refSoftplus (u : Ideal .f32) : Ideal .f32 :=
  Scalar.select
    (FloatOps.cmpf .une (FloatOps.subf u (FloatOps.ofBits .f32 0#32)) (FloatOps.subf u (FloatOps.ofBits .f32 0#32)))
    (FloatOps.addf u (FloatOps.ofBits .f32 0#32))
    (FloatOps.addf (FloatOps.maximumf u (FloatOps.ofBits .f32 0#32))
      (FloatOps.hostUnary .log1p (FloatOps.hostUnary .exp (FloatOps.hostNegf
        (FloatOps.hostAbsf (FloatOps.subf u (FloatOps.ofBits .f32 0#32)))))))

/-- One element's loss with the two targets' branches written out. -/
def refLoss (x : Ideal .f32) (t : BitVec 32) : Ideal .f32 :=
  Scalar.select (IntOp.cmpi .eq t 1#32)
    (FloatOps.mulf (refSoftplus (FloatOps.hostNegf x))
      (Scalar.select (FloatOps.cmpf .oge x (FloatOps.ofBits .f32 0#32))
        (FloatOps.ofBits .f32 0x3F800000#32) (FloatOps.ofBits .f32 0x41000000#32)))
    (Scalar.select (IntOp.cmpi .eq t 0#32)
      (FloatOps.mulf (refSoftplus x)
        (Scalar.select (FloatOps.cmpf .olt x (FloatOps.ofBits .f32 0#32))
          (FloatOps.ofBits .f32 0x3F800000#32) (FloatOps.ofBits .f32 0x41000000#32)))
      (FloatOps.ofBits .f32 0#32))

/-- The host's negation is subtraction from the zero word. -/
theorem hostNegf_eq (y : Ideal .f32) :
    FloatOps.hostNegf y = FloatOps.subf (FloatOps.ofBits .f32 0#32 : Ideal .f32) y := by
  show -y = Ideal.ofBits .f32 0#32 - y
  rw [Ideal.ofBits_zero_f32, sub_eq_add_neg, zero_add]

/-- No extended real differs from itself: the guard of either softplus is never taken. -/
theorem softplus_eq (u : Ideal .f32) : refSoftplus u = softplus u := by
  have h1 : FloatOps.cmpf (F := Ideal) .une (FloatOps.subf u (FloatOps.ofBits .f32 0#32)) (FloatOps.subf u (FloatOps.ofBits .f32 0#32)) = 0#1 := by
    show Ideal.cmp .une _ _ = 0#1
    simp [Ideal.cmp]
  have h2 : FloatOps.cmpf (F := Ideal) .one (FloatOps.subf u (FloatOps.ofBits .f32 0#32)) (FloatOps.subf u (FloatOps.ofBits .f32 0#32)) = 0#1 := by
    show Ideal.cmp .one _ _ = 0#1
    simp [Ideal.cmp]
  unfold refSoftplus softplus
  rw [h1, h2, ValueIdx.select_zero, ValueIdx.select_zero, hostNegf_eq]
  rfl

theorem cmpi_eq_self (t : BitVec 32) : IntOp.cmpi .eq t t = 1#1 := by
  simp [IntOp.cmpi]

theorem cmpi_eq_of_ne {t s : BitVec 32} (h : t ≠ s) : IntOp.cmpi .eq t s = 0#1 := by
  show BitVec.ofBool (t == s) = 0#1
  rw [beq_false_of_ne h]; rfl

/-- The two spellings of one element's loss agree: by cases on the target. -/
theorem refLoss_eq (x : Ideal .f32) (t : BitVec 32) : refLoss x t = loss x t := by
  unfold refLoss loss valid weight arg
  rw [softplus_eq, softplus_eq]
  by_cases h1 : t = 1#32
  · subst h1
    rw [cmpi_eq_self, cmpi_eq_of_ne (by decide : (1#32 : BitVec 32) ≠ 0#32), ValueIdx.select_one, ValueIdx.select_one,
      hostNegf_eq]
    have hx : IntOp.xori (IntOp.xori (FloatOps.cmpf (F := Ideal) .oge x (FloatOps.ofBits .f32 0#32)) 1#1) 1#1
        = FloatOps.cmpf (F := Ideal) .oge x (FloatOps.ofBits .f32 0#32) := by
      generalize FloatOps.cmpf (F := Ideal) .oge x (FloatOps.ofBits .f32 0#32) = b
      revert b; decide
    have hv : IntOp.ori (0#1) (1#1) = 1#1 := by decide
    rw [hx, hv, ValueIdx.select_one]
  · rw [cmpi_eq_of_ne h1, ValueIdx.select_zero, ValueIdx.select_zero]
    by_cases h0 : t = 0#32
    · subst h0
      rw [cmpi_eq_self, ValueIdx.select_one]
      have hv : IntOp.ori (1#1) (0#1) = 1#1 := by decide
      rw [hv, ValueIdx.select_one]
      have hx : IntOp.xori (IntOp.xori (FloatOps.cmpf (F := Ideal) .oge x (FloatOps.ofBits .f32 0#32)) 0#1) 1#1
          = FloatOps.cmpf (F := Ideal) .olt x (FloatOps.ofBits .f32 0#32) := by
        show IntOp.xori (IntOp.xori (Ideal.cmp .oge x (Ideal.ofBits .f32 0#32)) 0#1) 1#1
          = Ideal.cmp .olt x (Ideal.ofBits .f32 0#32)
        rw [Ideal.ofBits_zero_f32]
        by_cases hle : (0 : EReal) ≤ x
        · have hn : ¬ x < 0 := not_lt.mpr hle
          simp [Ideal.cmp, hle, hn, IntOp.xori]
        · have hl : x < 0 := not_le.mp hle
          simp [Ideal.cmp, hle, hl, IntOp.xori]
      rw [hx]
    · rw [cmpi_eq_of_ne h0, ValueIdx.select_zero]
      have hv : IntOp.ori (0#1) (0#1) = 0#1 := by decide
      rw [hv, ValueIdx.select_zero]

/-! ## The divisor -/

/-- The word 0x4C800000 denotes 2^26 = 67108864. -/
theorem count_word : Ideal.ofBits .f32 0x4C800000#32 = ((67108864 : ℝ) : EReal) := by
  simp [Ideal.ofBits, Ideal.ieee, -EReal.coe_mul]; norm_num

/-- Division by 2^26 distributes over the sum of any two extended reals: it is the product with the positive real
    2^-26, which is monotone and keeps each infinity. -/
theorem div_count_add (a b : EReal) :
    Ideal.div (a + b) (Ideal.ofBits .f32 0x4C800000#32)
      = Ideal.div a (Ideal.ofBits .f32 0x4C800000#32) + Ideal.div b (Ideal.ofBits .f32 0x4C800000#32) := by
  rw [count_word]
  exact Cert.LibSumSplit.div_pos_real_add (by norm_num) a b

end Cert.Loss

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelPieces.lean ====
/-
  What one grid point leaves behind, as values of what it found.

  The body keeps a running row of 128 partial sums in a scratch buffer. At a point it reads its two input blocks
  (logits x0 and targets x1) and replaces the row by  row + (column sums of the block's per-element losses); the first
  point of a core's run starts from the zero row instead of the row it found; the last point of a run also stores
  (sum of the new row) / 2^26 into the output block.  Written with the body's own payload terms:
    step x0 x1 acc  is the new row from the old row acc,
    the first point leaves  step x0 x1 zeroRow,  a middle or last point  step x0 x1 (row found),
    and the last point's output block is  meanOf (step x0 x1 (row found)).
-/
import proofs.«170925_j79465484910812_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new row of partial sums from the old one and the point's two input blocks. -/
def step (x0 : Vec F S8192x128 .f32) (x1 : Vec F S8192x128 .i32) (acc : Vec F S1x128 .f32) : Vec F S1x128 .f32 :=
  k0_pay1 (k0_pay6 x0 x1) (k0_pay7 x1) (k0_pay8 x0 x1) acc

/-- The row a run starts from: all zeros. -/
def zeroRow : Vec F S1x128 .f32 := k0_pay3 (F := F)

/-- The output block from the final row: its sum divided by the element count. -/
def meanOf (row : Vec F S1x128 .f32) : Vec F S1x1x1 .f32 := k0_pay2 row

/-- A middle point leaves the row it found, stepped. -/
theorem scratch_B (c : Dev nD) (i : grid0.Coords) (a2 : Memref sig .tc .vmem S8192x128 .f32) (h2 : a2.IsWhole)
    (a3 : Memref sig .tc .vmem S8192x128 .i32) (h3 : a3.IsWhole) (a4 : Memref sig .tc .vmem S1x1x1 .f32) (h4 : a4.IsWhole)
    (a5 : Memref sig .tc .vmem S1x128 .f32) (h5 : a5.IsWhole) (hc0 : ¬cond0_0 i) (hc1 : ¬cond0_1 i)
    (x0 : Vec F S8192x128 .f32) (x1 : Vec F S8192x128 .i32) (xs0 : Vec F S1x128 .f32) :
    sout0_B_0 c i a2 h2 a3 h3 a4 h4 a5 h5 hc0 hc1 x0 x1 xs0 = step x0 x1 xs0 := by
  unfold sout0_B_0 step
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S8192x128) hz2,
    View.ld_unit_zero (S := S1x128) hz2, View.readCov_unit_zero (S := S1x128) _ hz2]

/-- The last point of a run leaves the row it found, stepped, as well. -/
theorem scratch_C (c : Dev nD) (i : grid0.Coords) (a2 : Memref sig .tc .vmem S8192x128 .f32) (h2 : a2.IsWhole)
    (a3 : Memref sig .tc .vmem S8192x128 .i32) (h3 : a3.IsWhole) (a4 : Memref sig .tc .vmem S1x1x1 .f32) (h4 : a4.IsWhole)
    (a5 : Memref sig .tc .vmem S1x128 .f32) (h5 : a5.IsWhole) (hc0 : ¬cond0_0 i) (hc1 : cond0_1 i)
    (x0 : Vec F S8192x128 .f32) (x1 : Vec F S8192x128 .i32) (xs0 : Vec F S1x128 .f32) :
    sout0_C_0 c i a2 h2 a3 h3 a4 h4 a5 h5 hc0 hc1 x0 x1 xs0 = step x0 x1 xs0 := by
  unfold sout0_C_0 step
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S8192x128) hz2,
    View.ld_unit_zero (S := S1x128) hz2, View.readCov_unit_zero (S := S1x128) _ hz2]

/-- The first point of a run stores the zero row, reads it back, and leaves it stepped. -/
theorem scratch_A (c : Dev nD) (i : grid0.Coords) (a2 : Memref sig .tc .vmem S8192x128 .f32) (h2 : a2.IsWhole)
    (a3 : Memref sig .tc .vmem S8192x128 .i32) (h3 : a3.IsWhole) (a4 : Memref sig .tc .vmem S1x1x1 .f32) (h4 : a4.IsWhole)
    (a5 : Memref sig .tc .vmem S1x128 .f32) (h5 : a5.IsWhole) (hc0 : cond0_0 i) (hc1 : ¬cond0_1 i)
    (x0 : Vec F S8192x128 .f32) (x1 : Vec F S8192x128 .i32) :
    sout0_A_0 c i a2 h2 a3 h3 a4 h4 a5 h5 hc0 hc1 x0 x1 = step x0 x1 (zeroRow (F := F)) := by
  unfold sout0_A_0 step zeroRow
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz2]
  simp only [View.readAt_eq_ld, h2.read_unread, h3.read_unread, h5.read_unread, View.ld_unit_zero (S := S8192x128) hz2,
    View.ld_unit_zero (S := S1x128) hz2, View.readCov_unit_zero (S := S1x128) _ hz2]

/-- The last point of a run stores, into the output block, the mean taken from the row it has just written. -/
theorem output_C (c : Dev nD) (i : grid0.Coords) (a2 : Memref sig .tc .vmem S8192x128 .f32) (h2 : a2.IsWhole)
    (a3 : Memref sig .tc .vmem S8192x128 .i32) (h3 : a3.IsWhole) (a4 : Memref sig .tc .vmem S1x1x1 .f32) (h4 : a4.IsWhole)
    (a5 : Memref sig .tc .vmem S1x128 .f32) (h5 : a5.IsWhole) (hc0 : ¬cond0_0 i) (hc1 : cond0_1 i)
    (x0 : Vec F S8192x128 .f32) (x1 : Vec F S8192x128 .i32) (xs0 : Vec F S1x128 .f32) :
    out0_C_2 c i a2 h2 a3 h3 a4 h4 a5 h5 hc0 hc1 x0 x1 xs0 = meanOf (step x0 x1 xs0) := by
  unfold out0_C_2 meanOf step
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S8192x128) hz2,
    View.ld_unit_zero (S := S1x128) hz2, View.readCov_unit_zero (S := S1x128) _ hz2]

end Cert.KernelIdeal.Pieces

end
-- ==== Proof.KernelRows.lean ====
/-
  The body's three pure terms read at an index, over the extended reals.

  * the stepped row at lane l is the old row at l plus the sum, over the block's 8192 rows r, of the loss of the
    element (r, l): the reduction runs down a column, its result is laid out as one row, and is added lane by lane;
  * the zero row is 0 at every lane;
  * the output block's one entry is the sum of the row's 128 lanes divided by 2^26.
-/
import proofs.«170925_j79465484910812_2_alg».proof.Proof.Loss
import proofs.«170925_j79465484910812_2_alg».proof.Proof.LibKeepdims
import proofs.«170925_j79465484910812_2_alg».proof.Proof.KernelPieces
import Idealize.ShloMosaic.Lib.ValueLayout

noncomputable section

open Idealize.ShloMosaic Idealize.ShloMosaic.ValueIdx

namespace Cert.KernelIdeal.Rows

open Cert.KernelIdeal Cert.KernelIdeal.Gen Cert.KernelIdeal.Pieces Cert.Loss

/-- The masked product the column sums run over is, entry by entry, the loss of that entry's logit and target. -/
theorem losses_apply (x0 : Vec Ideal S8192x128 .f32) (x1 : Vec Ideal S8192x128 .i32) (i : S8192x128.Idx) :
    select (k0_pay7 (F := Ideal) x1) (mulf (k0_pay8 (F := Ideal) x0 x1) (k0_pay6 (F := Ideal) x0 x1))
        (broadcast S8192x128 (Scalar.ofBits (F := Ideal) .f32 0x00000000#32)) i
      = loss (x0 i) (x1 i) := by
  unfold k0_pay7 k0_pay8 k0_pay6 k0_pay4 k0_pay5
  simp only [shapeCast_self]
  rfl

/-- The stepped row at lane l: the old row there plus the column sum of the block's losses. -/
theorem step_apply (x0 : Vec Ideal S8192x128 .f32) (x1 : Vec Ideal S8192x128 .i32) (acc : Vec Ideal S1x128 .f32)
    (l : Fin 128) :
    step (F := Ideal) x0 x1 acc (ix2 (0 : Fin 1) l)
      = acc (ix2 (0 : Fin 1) l) + ∑ r : Fin 8192, loss (x0 (ix2 r l)) (x1 (ix2 r l)) := by
  unfold step k0_pay1
  rw [shapeCast_self]
  refine congrArg (acc (ix2 (0 : Fin 1) l) + ·) ?_
  refine (shapeCast_a_1a_apply _ shapeCasts_S128_S1x128 (0 : Fin 1) l).trans ?_
  refine (Cert.LibKeepdims.add_axis0_apply _ _ reduces_S8192x128_S128 (.inl rfl) rfl l).trans ?_
  exact Finset.sum_congr rfl fun r _ => losses_apply x0 x1 (ix2 r l)

/-- The zero row is zero at every index. -/
theorem zeroRow_apply (i : S1x128.Idx) : zeroRow (F := Ideal) i = (0 : EReal) := by
  unfold zeroRow k0_pay3
  rw [shapeCast_self]
  exact Ideal.ofBits_zero_f32

/-- The output block's entry: the row's total over its 128 lanes, divided by the element count. -/
theorem meanOf_apply (row : Vec Ideal S1x128 .f32) (j : S1x1x1.Idx) :
    meanOf (F := Ideal) row j
      = Ideal.div (∑ l : Fin 128, row (ix2 (0 : Fin 1) l)) (Ideal.ofBits .f32 0x4C800000#32) := by
  obtain ⟨u, p, q, rfl⟩ : ∃ (u : Fin 1) (p : Fin 1) (q : Fin 1), j = ix3 u p q := ⟨j 0, j 1, j 2, eq_ix3 j⟩
  unfold meanOf k0_pay2
  refine (shapeCast_ab_1ab_apply _ shapeCasts_S1x1_S1x1x1 u p q).trans ?_
  refine congrArg (Ideal.div · (Ideal.ofBits .f32 0x4C800000#32)) ?_
  refine (shapeCast_a_1a_apply _ shapeCasts_S1_S1x1 p q).trans ?_
  have hq : q = 0 := Subsingleton.elim _ _
  subst hq
  exact Cert.LibKeepdims.add_axis1_apply row _ reduces_S1x128_S1 (.inl rfl) rfl (0 : Fin 1)

end Cert.KernelIdeal.Rows

end
-- ==== Proof.Mean.lean ====
/-
  The mean of 2^26 losses, taken whole and taken in pieces.

  Element k of the flat arrays sits at core q, step s, row r, lane l with
      k = ((32 q + s) * 8192 + r) * 128 + l,      q < 2, s < 32, r < 8192, l < 128.
  One side sums everything and divides once; the other, per core, sums rows into 128 lanes step after step, sums the
  lanes, divides, and adds the two cores' quotients. Addition of extended reals is commutative and associative, so the
  regrouping is free; dividing by the positive real 2^26 distributes over the sum of the two cores' totals.
-/
import proofs.«170925_j79465484910812_2_alg».proof.Proof.Loss

noncomputable section

namespace Cert.Mean

open Idealize.ShloMosaic Idealize.ShloMosaic.ValueIdx Cert.Loss Cert.LibSumSplit

/-- The loss of flat element k of a logits array and a targets array, and 0 past their end. -/
def lossAt (x : (⟨1, ![67108864]⟩ : Shape).Idx → EReal) (t : (⟨1, ![67108864]⟩ : Shape).Idx → BitVec 32) (k : ℕ) : EReal :=
  if h : k < 67108864 then loss (x (ix1 ⟨k, h⟩)) (t (ix1 ⟨k, h⟩)) else 0

theorem lossAt_of_lt (x : (⟨1, ![67108864]⟩ : Shape).Idx → EReal) (t : (⟨1, ![67108864]⟩ : Shape).Idx → BitVec 32)
    (k : ℕ) (h : k < 67108864) : lossAt x t k = loss (x (ix1 ⟨k, h⟩)) (t (ix1 ⟨k, h⟩)) := dif_pos h

/-- Flat indices are the positions below 2·32·8192·128. -/
def flatEquiv : Fin (2 * 32 * 8192 * 128) ≃ (⟨1, ![67108864]⟩ : Shape).Idx where
  toFun k := ix1 ⟨k.val, by have := k.isLt; omega⟩
  invFun j := ⟨(j 0).val, by have h : (j 0).val < 67108864 := (j 0).isLt; omega⟩
  left_inv k := rfl
  right_inv j := (eq_ix1 j).symm

/-- The sum of the losses over the flat index set is the sum of lossAt over the positions. -/
theorem sum_flat (x : (⟨1, ![67108864]⟩ : Shape).Idx → EReal) (t : (⟨1, ![67108864]⟩ : Shape).Idx → BitVec 32) :
    ∑ j, loss (x j) (t j) = ∑ k : Fin (2 * 32 * 8192 * 128), lossAt x t k.val := by
  rw [← Equiv.sum_comp flatEquiv (fun j => loss (x j) (t j))]
  refine Finset.sum_congr rfl fun k _ => ?_
  have h : k.val < 67108864 := by have := k.isLt; omega
  exact (lossAt_of_lt x t k.val h).symm

/-- THE TWO MEANS AGREE: the two cores' quotients added from zero are the quotient of the whole sum added from zero. -/
theorem mean_pieces (f : ℕ → EReal) :
    (0 : EReal) + (Ideal.div (∑ l : Fin 128, ((0 : EReal) + ∑ s ∈ Finset.range 32, ∑ r : Fin 8192, f (((32 * 0 + s) * 8192 + r.val) * 128 + l.val)))
          (Ideal.ofBits .f32 0x4C800000#32)
        + Ideal.div (∑ l : Fin 128, ((0 : EReal) + ∑ s ∈ Finset.range 32, ∑ r : Fin 8192, f (((32 * 1 + s) * 8192 + r.val) * 128 + l.val)))
          (Ideal.ofBits .f32 0x4C800000#32))
      = Ideal.div ((0 : EReal) + ∑ k : Fin (2 * 32 * 8192 * 128), f k.val) (Ideal.ofBits .f32 0x4C800000#32) := by
  rw [zero_add, zero_add, ← div_count_add, total_split 2 32 8192 128 f, Fin.sum_univ_two]
  simp only [zero_add]
  rfl

end Cert.Mean

end
-- ==== Proof.KernelRun.lean ====
/-
  The kernel's run, read: what the scratch row and the output array hold, and the scalar the program returns.

  The 64 grid points are two runs of 32: point t = 32 q + s is step s of core q, and reads rows
  8192 t .. 8192 t + 8191 of the two reshaped [524288, 128] inputs, i.e. flat elements (8192 t + r) 128 + l.
  After step s of a run the scratch row holds, at lane l, the losses of the run's first s + 1 blocks summed down
  their columns; the run's last step writes (sum of the row) / 2^26 into entry q of the [2, 1, 1] output, and the
  host sums the two entries from zero.
-/
import proofs.«170925_j79465484910812_2_alg».proof.Proof.KernelRows
import proofs.«170925_j79465484910812_2_alg».proof.Proof.Mean
import proofs.«170925_j79465484910812_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Pieces Cert.KernelIdeal.Rows Cert.Loss Cert.Mean

variable (m : (ℓ : Loc nD τ sig) → Buf (Elt Ideal) ℓ) (ρ : Dev nD → PrngReg)

/-- The flat logits and targets as launched. -/
abbrev X (c : Dev nD) : S67108864.Idx → EReal := m ((c : Thread nD τ).loc main_arg0)
abbrev T (c : Dev nD) : S67108864.Idx → BitVec 32 := m ((c : Thread nD τ).loc main_arg1)

/-! ## The input blocks -/

/-- The region finds the two [524288, 128] arrays at the host's reshapes of the flat arguments. -/
theorem V_logits (c : Dev nD) :
    (V m c main_v0 : S524288x128.Idx → EReal) = shapeCast S524288x128 (X m c) shapeCasts_S67108864_S524288x128 := by
  show StableHlo.after hostOps0 (fun b => m (c, b)) (Proc.devRef .tc main_v0) = _
  after_results
  rfl

theorem V_targets (c : Dev nD) :
    (V m c main_v1 : S524288x128.Idx → BitVec 32) = shapeCast S524288x128 (T m c) shapeCasts_S67108864_S524288x128 := by
  show StableHlo.after hostOps0 (fun b => m (c, b)) (Proc.devRef .tc main_v1) = _
  after_results
  rfl

/-- The printed index maps over the 64 points: both inputs' block row is the point's number, the output's block is the
    point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- Row-major position of (row, lane) in a [524288, 128] reshape of a flat array. -/
theorem reshape_at {α : Type} (x : S67108864.Idx → α) (row : Fin 524288) (l : Fin 128) (h : row.val * 128 + l.val < 67108864) :
    shapeCast S524288x128 x shapeCasts_S67108864_S524288x128 (ix2 row l) = x (ix1 ⟨row.val * 128 + l.val, h⟩) :=
  shapeCast_apply x _ _ _ (by rw [Shape.rowMajor_val_two, Shape.rowMajor_val_one]; rfl)

/-- Entry (r, l) of the logits block of point t is flat element (8192 t + r) 128 + l. -/
theorem logits_blk (c : Dev nD) (t : Fin cfg0.N) (r : Fin 8192) (l : Fin 128)
    (h : (t.val * 8192 + r.val) * 128 + l.val < 67108864) :
    (iblk m c 0 t : Vec Ideal S8192x128 .f32) (ix2 r l) = X m c (ix1 ⟨(t.val * 8192 + r.val) * 128 + l.val, h⟩) := by
  unfold iblk
  rw [View.read_apply]
  show V m c main_v0 _ = _
  rw [V_logits]
  refine shapeCast_apply (X m c) _ _ _ ?_
  rw [Shape.rowMajor_val_two, Shape.rowMajor_val_one]
  obtain ⟨e0, e1, -⟩ := idx_facts t
  show (t.val * 8192 + r.val) * 128 + l.val
    = (win0_0.index t (0 : Fin 2) * 8192 + 1 * r.val) * 128 + (win0_0.index t (1 : Fin 2) * 128 + 1 * l.val)
  rw [e0, e1]; omega

/-- The same of the targets block. -/
theorem targets_blk (c : Dev nD) (t : Fin cfg0.N) (r : Fin 8192) (l : Fin 128)
    (h : (t.val * 8192 + r.val) * 128 + l.val < 67108864) :
    (iblk m c 1 t : Vec Ideal S8192x128 .i32) (ix2 r l) = T m c (ix1 ⟨(t.val * 8192 + r.val) * 128 + l.val, h⟩) := by
  unfold iblk
  rw [View.read_apply]
  show V m c main_v1 _ = _
  rw [V_targets]
  refine shapeCast_apply (T m c) _ _ _ ?_
  rw [Shape.rowMajor_val_two, Shape.rowMajor_val_one]
  obtain ⟨-, -, e0, e1, -⟩ := idx_facts t
  show (t.val * 8192 + r.val) * 128 + l.val
    = (win0_1.index t (0 : Fin 2) * 8192 + 1 * r.val) * 128 + (win0_1.index t (1 : Fin 2) * 128 + 1 * l.val)
  rw [e0, e1]; omega

/-- So the loss of entry (r, l) of point t's blocks is the loss of that flat element. -/
theorem blk_loss (c : Dev nD) (t : Fin cfg0.N) (r : Fin 8192) (l : Fin 128) :
    loss ((iblk m c 0 t : Vec Ideal S8192x128 .f32) (ix2 r l)) ((iblk m c 1 t : Vec Ideal S8192x128 .i32) (ix2 r l))
      = lossAt (X m c) (T m c) ((t.val * 8192 + r.val) * 128 + l.val) := by
  have hN : t.val < 64 := lt_of_lt_of_eq t.isLt N_0
  have h : (t.val * 8192 + r.val) * 128 + l.val < 67108864 := by have := r.isLt; have := l.isLt; omega
  rw [lossAt_of_lt _ _ _ h, logits_blk m c t r l h, targets_blk m c t r l h]

/-! ## The scratch row, step by step -/

/-- Block n's losses summed down column (i 1). -/
def colSum (c : Dev nD) (n : ℕ) (i : S1x128.Idx) : EReal :=
  ∑ r : Fin 8192, lossAt (X m c) (T m c) ((n * 8192 + r.val) * 128 + (i 1).val)

/-- A step at point t adds block t's column sums to the row. -/
theorem step_blk (c : Dev nD) (t : Fin cfg0.N) (acc : Vec Ideal S1x128 .f32) (i : S1x128.Idx) :
    step (F := Ideal) (iblk m c 0 t) (iblk m c 1 t) acc i = acc i + colSum m c t.val i := by
  obtain ⟨p, l, rfl⟩ : ∃ (p : Fin 1) (l : Fin 128), i = ix2 p l := ⟨i 0, i 1, eq_ix2 i⟩
  obtain rfl : p = 0 := Subsingleton.elim _ _
  refine (step_apply (iblk m c 0 t) (iblk m c 1 t) acc l).trans ?_
  exact congrArg (acc (ix2 (0 : Fin 1) l) + ·) (Finset.sum_congr rfl fun r _ => blk_loss m c t r l)

/-- What the scratch row holds after point n. -/
def rowAt (c : Dev nD) (n : ℕ) (h : n < cfg0.N) : Vec Ideal S1x128 .f32 := (outsAt0 m c n h).2

/-- The row a run's first point leaves, and the row any later point leaves from the one before. -/
def rowReset (c : Dev nD) (n : ℕ) (h : n < cfg0.N) : Vec Ideal S1x128 .f32 :=
  step (F := Ideal) (iblk m c 0 ⟨n, h⟩) (iblk m c 1 ⟨n, h⟩) (zeroRow (F := Ideal))
def rowStep (c : Dev nD) (n : ℕ) (h : n < cfg0.N) (acc : Vec Ideal S1x128 .f32) : Vec Ideal S1x128 .f32 :=
  step (F := Ideal) (iblk m c 0 ⟨n, h⟩) (iblk m c 1 ⟨n, h⟩) acc

theorem row_reset (c : Dev nD) (n : ℕ) (h : n < cfg0.N) (h0 : n % 32 = 0) : rowAt m c n h = rowReset m c n h := by
  have h1 : ¬ n % 32 = 31 := by omega
  unfold rowAt rowReset
  rw [outsAt0_A m c ⟨n, h⟩ h0 h1]
  dsimp only
  exact scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩)

theorem row_step (c : Dev nD) (n : ℕ) (h : n + 1 < cfg0.N) (hne : ¬(n + 1) % 32 = 0) :
    rowAt m c (n + 1) h = rowStep m c (n + 1) h (rowAt m c n (Nat.lt_of_succ_lt h)) := by
  unfold rowAt rowStep
  by_cases h1 : (n + 1) % 32 = 31
  · rw [outsAt0_C m c ⟨n + 1, h⟩ hne h1]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne ((hcond0_0 ⟨n + 1, h⟩).mp hh)) ((hcond0_1 ⟨n + 1, h⟩).mpr h1)
      (iblk m c 0 ⟨n + 1, h⟩) (iblk m c 1 ⟨n + 1, h⟩) (outsAt0 m c n (Nat.lt_of_succ_lt h)).2
  · rw [outsAt0_B m c ⟨n + 1, h⟩ hne h1]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne ((hcond0_0 ⟨n + 1, h⟩).mp hh)) (fun hh => h1 ((hcond0_1 ⟨n + 1, h⟩).mp hh))
      (iblk m c 0 ⟨n + 1, h⟩) (iblk m c 1 ⟨n + 1, h⟩) (outsAt0 m c n (Nat.lt_of_succ_lt h)).2

/-- After the last point of a run the row holds, at every index, the column sums of the run's 32 blocks added from zero. -/
theorem row_final (c : Dev nD) (t : Fin cfg0.N) (h31 : t.val % 32 = 31) (i : S1x128.Idx) :
    rowAt m c t.val t.isLt i = 0 + ∑ s ∈ Finset.range 32, colSum m c (32 * (t.val / 32) + s) i := by
  have h' : 32 * (t.val / 32) + t.val % 32 < cfg0.N := by rw [Nat.div_add_mod]; exact t.isLt
  rw [Pipeline.eq_accAt_of_mod (rowAt m c) 32 (rowReset m c) (rowStep m c) (row_reset m c) (row_step m c) (by norm_num) t.val t.isLt h']
  have hfold := Pipeline.accAt_add_apply (rowReset m c) (rowStep m c) (fun _ => (0 : EReal)) (fun n i => colSum m c n i)
    (32 * (t.val / 32)) 31
    (fun hb i => by
      unfold rowReset
      rw [step_blk m c ⟨32 * (t.val / 32), hb⟩ (zeroRow (F := Ideal)) i, zeroRow_apply])
    (fun n hn acc i _ _ => by
      unfold rowStep
      exact step_blk m c ⟨n, hn⟩ acc i)
    (t.val % 32) (by omega) h' i
  rw [hfold, h31]

/-! ## The output array -/

/-- Core q's total: its run's final row summed over the lanes. -/
def coreTotal (c : Dev nD) (q : ℕ) : EReal :=
  ∑ l : Fin 128, ((0 : EReal) + ∑ s ∈ Finset.range 32, colSum m c (32 * q + s) (ix2 (0 : Fin 1) l))

/-- The [2, 1, 1] output: entry q is core q's total over 2^26. -/
def outArr (c : Dev nD) : S2x1x1.Idx → EReal :=
  fun i => Ideal.div (coreTotal m c (i 0).val) (Ideal.ofBits .f32 0x4C800000#32)

/-- At a run's last point the output block is the mean taken from the row that point leaves. -/
theorem out_final (c : Dev nD) (t : Fin cfg0.N) (h0 : ¬t.val % 32 = 0) (h31 : t.val % 32 = 31) :
    (outsAt0 m c t.val t.isLt).1 = meanOf (F := Ideal) (rowAt m c t.val t.isLt) := by
  unfold rowAt
  rw [outsAt0_C m c t h0 h31]
  dsimp only
  exact (output_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h31)
      (iblk m c 0 t) (iblk m c 1 t) (outsAt0 m c (t.val - 1) (Nat.lt_of_le_of_lt (Nat.sub_le _ _) t.isLt)).2).trans
    (congrArg (meanOf (F := Ideal)) (scratch_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h31)
      (iblk m c 0 t) (iblk m c 1 t) (outsAt0 m c (t.val - 1) (Nat.lt_of_le_of_lt (Nat.sub_le _ _) t.isLt)).2).symm)

/-- What a writing point writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  have h0 : ¬ t.val % 32 = 0 := by omega
  show (cfg0.win 2).cut (grid0.coords t) ((dats m 0 c).after 2 t) = _
  rw [after0_2, out_final m c t h0 h31]
  funext y
  rw [View.read_apply]
  show meanOf (F := Ideal) (rowAt m c t.val t.isLt) y = outArr m c (((cfg0.win 2).blk t).view.emb y)
  rw [meanOf_apply]
  unfold outArr coreTotal
  have hq : ((((cfg0.win 2).blk t).view.emb y) 0).val = t.val / 32 := by
    obtain ⟨-, -, -, -, e4, -⟩ := idx_facts t
    show win0_2.index t (0 : Fin 3) * 1 + 1 * (y 0).val = _
    have hy : (y 0).val < 1 := (y 0).isLt
    rw [e4]; omega
  rw [hq]
  exact congrArg (Ideal.div · (Ideal.ofBits .f32 0x4C800000#32))
    (Finset.sum_congr rfl fun l _ => row_final m c t h31 (ix2 (0 : Fin 1) l))

/-- An index of the output is in point t's block iff each coordinate is in the block's range. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- The output array after the region: entry q written by the last point of run q. -/
theorem final_out (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 1 := (i 2).isLt
    have hN : cfg0.N = 64 := N_0
    refine ⟨⟨32 * (i 0).val + 31, by omega⟩, (flush0_2 _).mpr (by dsimp only; omega), ?_⟩
    rw [mem_blk]
    obtain ⟨-, -, -, -, e4, e5, e6⟩ := idx_facts ⟨32 * (i 0).val + 31, by omega⟩
    intro a
    match a with
    | ⟨0, _⟩ =>
      show win0_2.index _ (0 : Fin 3) * 1 ≤ (i 0).val ∧ (i 0).val < win0_2.index _ (0 : Fin 3) * 1 + 1
      rw [e4]; dsimp only; omega
    | ⟨1, _⟩ =>
      show win0_2.index _ (1 : Fin 3) * 1 ≤ (i 1).val ∧ (i 1).val < win0_2.index _ (1 : Fin 3) * 1 + 1
      rw [e5]; omega
    | ⟨2, _⟩ =>
      show win0_2.index _ (2 : Fin 3) * 1 ≤ (i 2).val ∧ (i 2).val < win0_2.index _ (2 : Fin 3) * 1 + 1
      rw [e6]; omega

/-! ## The host's sum of the two entries, and the run -/

/-- The scalar the program returns: the host's sum, from zero, of the output's entries. -/
def result (c : Dev nD) : S_.Idx → EReal :=
  Host.reduceAdd (F := Ideal) (outArr m c) (constant S_ .f32 0x00000000#32) reducesTo_S2x1x1_S_d0_1_2 h_S_

/-- The host operations after the region leave the returned scalar at that sum. -/
theorem tail_result (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = outArr m c :=
    (Pipeline.withArrays_arr spec0 launch0.win.arr_inj c (V0 m c) (fun w => (dats m 0 c).arrAt w cfg0.N) 2).trans (final_out m c)
  rw [e]
  rfl

/-- The output's index set is its two core entries. -/
def outEquiv : Fin 2 ≃ S2x1x1.Idx where
  toFun q := ix3 q (0 : Fin 1) (0 : Fin 1)
  invFun i := i 0
  left_inv q := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- The returned scalar: zero plus the two cores' quotients. -/
theorem result_apply (c : Dev nD) (j : S_.Idx) :
    result m c j = (0 : EReal) + (Ideal.div (coreTotal m c 0) (Ideal.ofBits .f32 0x4C800000#32)
      + Ideal.div (coreTotal m c 1) (Ideal.ofBits .f32 0x4C800000#32)) := by
  unfold result
  simp only [Host.reduceAdd, Ideal.hostReduceAdd_def]
  rw [Ideal.hostReduceAdd_total reducesTo_S2x1x1_S_d0_1_2 (fun b => b.elim0) (outArr m c) _ j,
    ← Equiv.sum_comp outEquiv (outArr m c), Fin.sum_univ_two]
  show Ideal.ofBits .f32 0x00000000#32 + _ = _
  rw [Ideal.ofBits_zero_f32]
  rfl

/-- THE RUN, READ: every weakly fair execution ends with the returned scalar at result and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference's run, read: its result is the sum of all 2^26 per-element losses, added from zero, over 2^26.

  Its per-element array spells the loss with one branch per target value (refLoss), which is the kernel's spelling
  (loss) at every element; the host's sum over the one axis is the sum over all flat positions.
-/
import proofs.«170925_j79465484910812_2_alg».proof.Proof.Gen.ReferenceIdeal.Read
import proofs.«170925_j79465484910812_2_alg».proof.Proof.Mean

noncomputable section

open Idealize.ShloMosaic Idealize.ShloMosaic.ValueIdx

namespace Cert.ReferenceIdeal.RefValue

open Cert.ReferenceIdeal Cert.ReferenceIdeal.Gen Cert.ReferenceIdeal.Read Cert.Loss Cert.Mean

/-- The array the reference sums is, element by element, the loss of that element's logit and target. -/
theorem per_elem (x0 : (⟨S67108864, .f32⟩ : BufTy).Contents (Elt Ideal)) (x1 : (⟨S67108864, .i32⟩ : BufTy).Contents (Elt Ideal))
    (i : S67108864.Idx) : val_main_v18 (F := Ideal) x0 x1 i = loss (x0 i) (x1 i) := by
  refine Eq.trans ?_ (refLoss_eq (x0 i) (x1 i))
  unfold val_main_v18 val_main_v17 val_main_v16 val_main_v15 val_main_c_5 val_main_v14 val_main_v13 val_main_c val_main_v12 val_main_v11 val_main_v10 val_main_call3_v1 val_main_call3_v0 val_main_cst_4 val_main_cst_3 val_main_v9 val_main_v8 val_main_cst_2 val_main_v7 val_main_call2_v11 val_main_call2_v10 val_main_call2_v9 val_main_call2_v8 val_main_call2_v7 val_main_call2_v6 val_main_call2_v5 val_main_call2_v4 val_main_call2_v3 val_main_call2_v2 val_main_call2_v1 val_main_call2_v0 val_main_call2_cst val_main_v6 val_main_v5 val_main_v4 val_main_call1_v1 val_main_call1_v0 val_main_cst_1 val_main_cst_0 val_main_v3 val_main_v2 val_main_cst val_main_v1 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v0 val_main_call4_v1 val_main_call4_v0 val_main_cst_6
  rfl

/-- The reference's result: all losses summed from zero, over 2^26. -/
theorem result_apply (x0 : (⟨S67108864, .f32⟩ : BufTy).Contents (Elt Ideal)) (x1 : (⟨S67108864, .i32⟩ : BufTy).Contents (Elt Ideal))
    (j : S_.Idx) :
    val_main_v20 (F := Ideal) x0 x1 j
      = Ideal.div ((0 : EReal) + ∑ k : Fin (2 * 32 * 8192 * 128), lossAt x0 x1 k.val) (Ideal.ofBits .f32 0x4C800000#32) := by
  rw [val_main_v20_apply, val_main_v19_apply, val_main_cst_8_apply, val_main_cst_7_apply]
  show Ideal.div (Ideal.ofBits .f32 0x00000000#32 + ∑ i, val_main_v18 (F := Ideal) x0 x1 i) (Ideal.ofBits .f32 0x4C800000#32) = _
  rw [Ideal.ofBits_zero_f32, Finset.sum_congr rfl (fun i _ => per_elem x0 x1 i), sum_flat]

end Cert.ReferenceIdeal.RefValue

end
-- ==== Proof.lean ====
/-
  Mean weighted binary cross-entropy with logits over 2^26 elements: the kernel against the reference.

  Per element both programs compute the same loss of a logit x and an integer target t: softplus(-x) weighted 1 or 8 by
  whether 0 ≤ x for t = 1, softplus(x) weighted 1 or 8 by whether x < 0 for t = 0, and zero for any other target. The
  kernel routes the softplus argument by the target and tests agreement of (0 ≤ x) with (t = 1) by two exclusive ors,
  the reference writes the two branches out: equal by cases on t, since on the extended reals "not 0 ≤ x" is "x < 0"
  and no value differs from itself (Proof/Loss.lean).

  The reference sums all 2^26 losses from zero and divides by 2^26. The kernel splits the elements between two cores;
  a core walks its 32 blocks of 8192 x 128 elements, adds each block's column sums into a running row of 128 lanes, and at
  its last block sums the row, divides by 2^26 and stores the quotient; the host adds the two quotients from zero.
  Sums of extended reals regroup freely (commutative, associative), and division by the positive real 2^26 distributes
  over the sum of the two cores' totals, so the two results are one extended real (Proof/Mean.lean). The precondition
  (finite inputs) is never opened.

  What the kernel's run leaves in its scratch row and output is read in Proof/KernelPieces.lean (per grid point),
  Proof/KernelRows.lean (each pure term at an index) and Proof/KernelRun.lean (the fold over the points, the output
  array, the host's final sum); the reference's run in Proof/RefValue.lean. The three frames are the generated ones;
  the idealization rewrote nothing.
-/
import proofs.«170925_j79465484910812_2_alg».proof.Defs
import proofs.«170925_j79465484910812_2_alg».proof.Proof.Gen.Kernel
import proofs.«170925_j79465484910812_2_alg».proof.Proof.Gen.Kernel.Skeleton
import proofs.«170925_j79465484910812_2_alg».proof.Proof.Gen.Kernel.Launch
import proofs.«170925_j79465484910812_2_alg».proof.Proof.Gen.Kernel.Points
import proofs.«170925_j79465484910812_2_alg».proof.Proof.Gen.Kernel.Frame
import proofs.«170925_j79465484910812_2_alg».proof.Proof.Gen.KernelIdeal
import proofs.«170925_j79465484910812_2_alg».proof.Proof.Gen.KernelIdeal.Skeleton
import proofs.«170925_j79465484910812_2_alg».proof.Proof.Gen.KernelIdeal.Launch
import proofs.«170925_j79465484910812_2_alg».proof.Proof.Gen.KernelIdeal.Points
import proofs.«170925_j79465484910812_2_alg».proof.Proof.Gen.KernelIdeal.Frame
import proofs.«170925_j79465484910812_2_alg».proof.Proof.Gen.ReferenceIdeal
import proofs.«170925_j79465484910812_2_alg».proof.Proof.Gen.Pre_finite_inputs
import proofs.«170925_j79465484910812_2_alg».proof.Proof.Gen.ReferenceIdeal.Run
import proofs.«170925_j79465484910812_2_alg».proof.Proof.Gen.ReferenceIdeal.Read
import proofs.«170925_j79465484910812_2_alg».proof.Proof.KernelRun
import proofs.«170925_j79465484910812_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the same scalar: the kernel's two quotients added from zero, and the reference's one quotient of the
    whole sum, of arrays that agree. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.RunValue.result m c
  rw [Cert.ReferenceIdeal.Read.val_main_v20_eq, (hagree c).1, (hagree c).2]
  funext j
  rw [Cert.ReferenceIdeal.RefValue.result_apply, Cert.KernelIdeal.RunValue.result_apply]
  exact (Cert.Mean.mean_pieces _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
